-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 75
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S1700000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S1700000x1, .f32⟩
  | .hbm, ⟨49, _⟩ => ⟨S1700000x128, .f32⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x64, .f32⟩
  | .hbm, ⟨74, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v39) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S1700000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S1700000x1, .f32⟩
  | .hbm, ⟨49, _⟩ => ⟨S1700000x128, .f32⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x1, .f32⟩
  | .hbm, ⟨72, _⟩ => ⟨S1700000x128, .f32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The run of the two-layer program with its result named.

  The program is four stretches in order: host operations, the first dense layer as a grid of row blocks, host
  operations, the second dense layer as a grid of row blocks. The contents of every buffer at the four boundaries are
  a fold from the launch memory: a host stretch applies its operations, a grid leaves each of its arrays at what its
  write-backs leave and every other buffer alone. Every weakly fair execution terminates without a fault in a state
  whose unscoped buffers hold the last boundary's contents; read at the result's buffer and at the six arguments this
  is the statement below: the result is the last fold at the result's buffer, the arguments are as launched.
-/
import proofs.«132825_j55353538510962_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates, nothing faulting, with the result's buffer at the last
    boundary's contents there and the six arguments as launched. -/
theorem run_result : θ_run defs (onTc (τ := τ) (main (F := F))) ⟨m, fun _ => 0, ρ⟩ (fun r => ∀ c : Dev nD,
      r.2.mem ((c.tc : Thread nD τ).loc main_v56) = W4 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v56 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Run

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.LibHostRows.lean ====
/-
  The host's two bias-row broadcasts read at coordinates, for any element type and any extents.

  A host program adds a bias vector to every row of a matrix in two steps: the vector `[b]` is laid along a new
  leading unit axis (`broadcast_in_dim`, dims = [1], into `[1, b]`), and that unit row is repeated down the rows
  (`broadcast_in_dim`, dims = [0, 1], into `[a, b]`).  Read at `(u, c)` the first is the vector at `c`; read at
  `(p, c)` the second is the unit row at `(0, c)`.  (The column counterparts, dims = [0] and a column repeated along
  the row, are the host keepdims forms.)
-/
import Idealize.ShloMosaic.Lib.ValueIdx
import Idealize.ShloMosaic.Lib.Pipeline.Value
import Idealize.ShloMosaic.Lib.ValueLayout

noncomputable section

namespace Cert.Lib.HostRows

open Idealize.ShloMosaic Idealize.ShloMosaic.ValueIdx

/-- A vector laid along a unit row reads, at `(u, c)`, the vector at `c`. -/
theorem bcast_b_1b_apply {α : Type} {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) :=
  broadcastInDim_apply ![1] h x (ix2 u c) (ix1 c) (fun k => by
    match k with
    | ⟨0, _⟩ =>
      show c.val = if b = 1 then 0 else c.val
      split_ifs with h1
      · have := c.isLt; omega
      · rfl)

/-- A unit row repeated down the rows reads, at `(p, c)`, the row at `c`. -/
theorem bcast_1b_ab_apply {α : Type} {a b : ℕ} (h : (⟨2, ![1, b]⟩ : Shape).BroadcastsInDim ⟨2, ![a, b]⟩ ![0, 1])
    (x : (⟨2, ![1, b]⟩ : Shape).Idx → α) (p : Fin a) (c : Fin b) :
    broadcastInDim ⟨2, ![a, b]⟩ ![0, 1] h x (ix2 p c) = x (ix2 (0 : Fin 1) c) :=
  broadcastInDim_apply ![0, 1] h x (ix2 p c) (ix2 (0 : Fin 1) c) (fun k => by
    match k with
    | ⟨0, _⟩ =>
      show (0 : ℕ) = if (1 : ℕ) = 1 then 0 else p.val
      rfl
    | ⟨1, _⟩ =>
      show c.val = if b = 1 then 0 else c.val
      split_ifs with h1
      · have := c.isLt; omega
      · rfl)

end Cert.Lib.HostRows

end
-- ==== Proof.DenseLayer.lean ====
/-
  A dense layer, `y = x · W + b`, optionally followed by `max (·, 0)`, in the two spellings of the two programs,
  read at a row `r` and a column `c` on the extended reals.

  One program computes the layer on a block of rows with the matrix unit: the block and the weights pass through a
  change of float format (the identity on the extended reals), their product is accumulated into zero, and the bias,
  held as a one-row matrix, is repeated down the rows and added.  The other computes it on the whole matrix at once:
  a `dot_general`, the bias vector laid along a unit row and then repeated down the rows, an addition.  Both are
  `(∑ k, x (r, k) · W (k, c)) + b c`: the sum is the same finite sum, term by term, and nothing else is rearranged,
  so no finiteness of the entries is needed.
-/
import Idealize.ShloMosaic.PureOps.Ideal.Laws
import Idealize.ShloMosaic.Lib.ValueIdx
import Idealize.ShloMosaic.Lib.ValueLayout
import Idealize.ShloMosaic.Lib.Pipeline.Value
import proofs.«132825_j55353538510962_1_alg».proof.Proof.LibPlainMatmul
import proofs.«132825_j55353538510962_1_alg».proof.Proof.LibPlainDotGeneral
import proofs.«132825_j55353538510962_1_alg».proof.Proof.LibHostRows

noncomputable section

namespace Cert.Dense

open Idealize.ShloMosaic Idealize.ShloMosaic.ValueIdx

/-- Entry `(r, c)` of `x · W + b`: row `r` of `x` against column `c` of `W`, plus the bias at `c`. -/
def affine {M K N : ℕ} (x : (⟨2, ![M, K]⟩ : Shape).Idx → EReal) (W : (⟨2, ![K, N]⟩ : Shape).Idx → EReal)
    (b : (⟨1, ![N]⟩ : Shape).Idx → EReal) (r : Fin M) (c : Fin N) : EReal :=
  (∑ k : Fin K, x (ix2 r k) * W (ix2 k c)) + b (ix1 c)

/-- `max (v, 0)`, the zero kept as the float word both programs print. -/
def relu (v : EReal) : EReal := max v (Ideal.ofBits .f32 0x00000000#32)

/-- The matrix unit's spelling on a block of rows, with the bias as a one-row matrix `brow`: at `(r, c)` it is the
    row-by-column sum plus `brow (0, c)`. -/
theorem block_affine_apply {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![M, K]⟩ .f32) (W : FVec Ideal ⟨2, ![K, N]⟩ .f32) (brow : FVec Ideal ⟨2, ![1, N]⟩ .f32)
    (hx : (⟨2, ![M, K]⟩ : Shape).ShapeCasts ⟨2, ![M, K]⟩) (hr : (⟨2, ![1, N]⟩ : Shape).ShapeCasts ⟨2, ![1, N]⟩)
    (hb : (⟨2, ![1, N]⟩ : Shape).Broadcasts ⟨2, ![M, N]⟩) (ht : FTy.bf16.bits < FTy.f32.bits)
    (r : Fin M) (c : Fin N) :
    addf (matmul d none (truncf .bf16 (shapeCast ⟨2, ![M, K]⟩ x hx) ht) (truncf .bf16 W ht)
        (constant ⟨2, ![M, N]⟩ .f32 0x00000000#32))
      (broadcastTo ⟨2, ![M, N]⟩ (shapeCast ⟨2, ![1, N]⟩ brow hr) hb) (ix2 r c)
    = (∑ k : Fin K, x (ix2 r k) * W (ix2 k c)) + brow (ix2 (0 : Fin 1) c) := by
  rw [shapeCast_self, shapeCast_self, addf_apply, broadcastTo_1b_ab_apply]
  exact congrArg (· + brow (ix2 (0 : Fin 1) c))
    (Cert.Lib.PlainMatmul.matmul_zero_apply d hlc hrc hln hrn hlb hrb none _ _ r c)

/-- The whole-matrix spelling: `dot_general`, the bias vector laid along a unit row and repeated down the rows,
    added. At `(r, c)` it is `affine`. -/
theorem whole_affine_apply {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (r : Fin M) (c : Fin N) :
    addf (Host.dotGeneral d none x W)
      (broadcastInDim ⟨2, ![M, N]⟩ ![0, 1] h2 (broadcastInDim ⟨2, ![1, N]⟩ ![1] h1 b)) (ix2 r c)
    = affine x W b r c := by
  rw [addf_apply, Cert.Lib.HostRows.bcast_1b_ab_apply, Cert.Lib.HostRows.bcast_b_1b_apply]
  exact congrArg (· + b (ix1 c))
    (Cert.Lib.PlainDotGeneral.dotGeneral_apply d hlc hrc hln hrn hlb hrb none .single x W r c)

/-- `max` against the zero splat a scalar broadcast gives, at an index. -/
theorem splat_relu_apply {s : Shape} (v : FVec Ideal s .f32) (i : s.Idx) :
    maximumf v (broadcast s (FloatOps.ofBits (F := Ideal) .f32 0x00000000#32)) i = relu (v i) := rfl

/-- `max` against the zero a rank-0 constant broadcast to the shape gives, at an index. -/
theorem bcast_relu_apply {s : Shape} (v : FVec Ideal s .f32) (dims : Fin 0 → Fin s.rank)
    (h : (⟨0, ![]⟩ : Shape).BroadcastsInDim s dims) (i : s.Idx) :
    maximumf v (broadcastInDim s dims h (constant (F := Ideal) ⟨0, ![]⟩ .f32 0x00000000#32)) i = relu (v i) := by
  rw [maximumf_apply, broadcastInDim_apply dims h _ i ix0 (fun a => a.elim0)]
  rfl

end Cert.Dense

end
-- ==== Proof.FirstLayerBlocks.lean ====
/-
  The first dense layer, block by block: what the grid of twenty row blocks leaves in its output array.

  Point `t` of the grid reads rows `5000 t … 5000 t + 4999` of the input matrix, the whole weight matrix and the
  whole one-row bias, and writes `max (x · W + b, 0)` of those rows to the same rows of the output. Entry `(r, c)`
  of what it writes depends on row `5000 t + r` of the input only, so every block is the restriction to its rows of
  ONE function of the whole arrays, `layer1`; the twenty blocks cover every row (row `i` is in block `i / 5000`),
  so after the grid the output array is that function. Stated for any contents `V` of the buffers at the grid's
  entry.
-/
import proofs.«132825_j55353538510962_1_alg».proof.Proof.Gen.KernelIdeal.Frame
import proofs.«132825_j55353538510962_1_alg».proof.Proof.DenseLayer
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- `max (x · W + b, 0)` on whole arrays, the bias held as a one-row matrix. -/
def layer1 (A : S100000x128.Idx → EReal) (W : S128x128.Idx → EReal) (brow : S1x128.Idx → EReal) :
    S100000x128.Idx → EReal :=
  fun i => Dense.relu ((∑ k : Fin 128, A (ix2 (i 0) k) * W (ix2 k (i 1))) + brow (ix2 (0 : Fin 1) (i 1)))

/-- `layer1` at the index whose coordinates are `R` and `Q`. -/
theorem layer1_apply (A : S100000x128.Idx → EReal) (W : S128x128.Idx → EReal) (brow : S1x128.Idx → EReal)
    (i : S100000x128.Idx) (R : Fin 100000) (Q : Fin 128) (h0 : (i 0).val = R.val) (h1 : (i 1).val = Q.val) :
    layer1 A W brow i = Dense.relu ((∑ k : Fin 128, A (ix2 R k) * W (ix2 k Q)) + brow (ix2 (0 : Fin 1) Q)) := by
  obtain rfl : i = ix2 R Q := funext fun a => Fin.ext (by
    match a with
    | ⟨0, _⟩ => exact h0
    | ⟨1, _⟩ => exact h1)
  rfl

/-- What a point stores, at row `r` and column `q` of its block: the row against the column, plus the bias,
    clamped below at zero. -/
theorem stored_apply (x0 : Vec Ideal S5000x128 .f32) (x1 : Vec Ideal S128x128 .f32) (x2 : Vec Ideal S1x128 .f32)
    (r : Fin 5000) (q : Fin 128) :
    k0_pay1 x0 x1 x2 (ix2 r q)
      = Dense.relu ((∑ k : Fin 128, x0 (ix2 r k) * x1 (ix2 k q)) + x2 (ix2 (0 : Fin 1) q)) := by
  unfold k0_pay1
  exact (Dense.splat_relu_apply _ _).trans (congrArg Dense.relu
    (Dense.block_affine_apply dot_S5000x128_S128x128_S5000x128_1_0_0_1_n_n rfl rfl rfl rfl rfl rfl x0 x1 x2 _ _ _ _ r q))

/-- The block indices over the grid: the input and output row blocks move with the point, the weights and the bias
    stay at block zero. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t` is rows `5000 t …` of the input matrix. -/
theorem rows_apply (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_v39 : S100000x128.Idx → EReal) i := by
  obtain ⟨e0, e1, -⟩ := block_index t
  unfold iblk0
  rw [View.read_apply]
  show V c main_v39 _ = V c main_v39 _
  congr 1
  funext a; apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight block at every point is the weight matrix. -/
theorem weights_apply (c : Dev nD) (t : Fin cfg0.N) (y : S128x128.Idx) :
    (iblk0 V c 1 t : Vec Ideal S128x128 .f32) y = (V c main_arg2 : S128x128.Idx → EReal) y := by
  obtain ⟨-, -, e0, e1, -⟩ := block_index t
  unfold iblk0
  rw [View.read_apply]
  show V c main_arg2 _ = V c main_arg2 _
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias block at every point is the one-row bias. -/
theorem bias_apply (c : Dev nD) (t : Fin cfg0.N) (y : S1x128.Idx) :
    (iblk0 V c 2 t : Vec Ideal S1x128 .f32) y = (V c main_v40 : S1x128.Idx → EReal) y := by
  obtain ⟨-, -, -, -, e0, e1, -⟩ := block_index t
  unfold iblk0
  rw [View.read_apply]
  show V c main_v40 _ = V c main_v40 _
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point `t` writes back is block `t` of `layer1` of the arrays as the grid finds them. -/
theorem flushed_eq (c : Dev nD) (t : Fin cfg0.N) :
    (dat0 V c).flushed 3 t
      = ((cfg0.win 3).blk t).view.read (Elt Ideal) (layer1 (V c main_v39) (V c main_arg2) (V c main_v40)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  obtain ⟨-, -, -, -, -, -, e0, e1⟩ := block_index t
  show k0_pay1 (iblk0 V c 0 t) (iblk0 V c 1 t) (iblk0 V c 2 t) (ix2 r q)
    = layer1 (V c main_v39) (V c main_arg2) (V c main_v40) (((cfg0.win 3).blk t).view.emb (ix2 r q))
  refine (stored_apply _ _ _ r q).trans ?_
  have hR : t.val * 5000 + r.val < 100000 := by
    have ht : t.val < 20 := lt_of_lt_of_eq t.isLt N_0
    have hr : r.val < 5000 := r.isLt
    omega
  refine Eq.trans ?_ (layer1_apply _ _ _ _ ⟨t.val * 5000 + r.val, hR⟩ q ?_ ?_).symm
  · exact congrArg Dense.relu (congr (congrArg HAdd.hAdd (Finset.sum_congr rfl fun k _ =>
      congr (congrArg HMul.hMul (rows_apply V c t (ix2 r k) (ix2 ⟨t.val * 5000 + r.val, hR⟩ k) rfl rfl))
        (weights_apply V c t (ix2 k q)))) (bias_apply V c t (ix2 (0 : Fin 1) q)))
  · show win0_3.index t (0 : Fin 2) * 5000 + 1 * r.val = t.val * 5000 + r.val
    rw [e0]; omega
  · show win0_3.index t (1 : Fin 2) * 128 + 1 * q.val = q.val
    rw [e1]; omega

/-- An index of the output array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v41).slice (win0_3.rect t)).set ↔ _
  rw [View.set_slice_whole, Rect.mem_set_unit]
  exact Iff.rfl

/-- Every index of the output array is in the block of the point its row falls in. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e0, e1⟩ := block_index ⟨(i 0).val / 5000, ht⟩
  refine ⟨⟨(i 0).val / 5000, ht⟩, flush0_3 _, ?_⟩
  rw [mem_block]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-- After the grid the output array is `layer1` of the arrays the grid found. -/
theorem final (c : Dev nD) :
    (dat0 V c).arrAt 3 cfg0.N = layer1 (V c main_v39) (V c main_arg2) (V c main_v40) :=
  (dat0 V c).arrAt_eq_of_cover 3 (layer1 (V c main_v39) (V c main_arg2) (V c main_v40))
    (fun t _ => flushed_eq V c t) covered

end Cert.KernelIdeal.Layer1

end
-- ==== Proof.SecondLayerBlocks.lean ====
/-
  The second dense layer, block by block: what the grid of twenty row blocks leaves in its output array.

  Point `t` of the grid reads rows `5000 t … 5000 t + 4999` of the input matrix, the whole weight matrix and the
  whole one-row bias, and writes `x · W + b` of those rows to the same rows of the output. Entry `(r, c)`
  of what it writes depends on row `5000 t + r` of the input only, so every block is the restriction to its rows of
  ONE function of the whole arrays, `layer2`; the twenty blocks cover every row (row `i` is in block `i / 5000`),
  so after the grid the output array is that function. Stated for any contents `V` of the buffers at the grid's
  entry.
-/
import proofs.«132825_j55353538510962_1_alg».proof.Proof.Gen.KernelIdeal.Frame
import proofs.«132825_j55353538510962_1_alg».proof.Proof.DenseLayer
import Idealize.ShloMosaic.Lib.Pipeline.Value

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- `x · W + b` on whole arrays, the bias held as a one-row matrix. -/
def layer2 (A : S100000x128.Idx → EReal) (W : S128x64.Idx → EReal) (brow : S1x64.Idx → EReal) :
    S100000x64.Idx → EReal :=
  fun i => (∑ k : Fin 128, A (ix2 (i 0) k) * W (ix2 k (i 1))) + brow (ix2 (0 : Fin 1) (i 1))

/-- `layer2` at the index whose coordinates are `R` and `Q`. -/
theorem layer2_apply (A : S100000x128.Idx → EReal) (W : S128x64.Idx → EReal) (brow : S1x64.Idx → EReal)
    (i : S100000x64.Idx) (R : Fin 100000) (Q : Fin 64) (h0 : (i 0).val = R.val) (h1 : (i 1).val = Q.val) :
    layer2 A W brow i = (∑ k : Fin 128, A (ix2 R k) * W (ix2 k Q)) + brow (ix2 (0 : Fin 1) Q) := by
  obtain rfl : i = ix2 R Q := funext fun a => Fin.ext (by
    match a with
    | ⟨0, _⟩ => exact h0
    | ⟨1, _⟩ => exact h1)
  rfl

/-- What a point stores, at row `r` and column `q` of its block: the row against the column, plus the bias. -/
theorem stored_apply (x0 : Vec Ideal S5000x128 .f32) (x1 : Vec Ideal S128x64 .f32) (x2 : Vec Ideal S1x64 .f32)
    (r : Fin 5000) (q : Fin 64) :
    k1_pay1 x0 x1 x2 (ix2 r q)
      = (∑ k : Fin 128, x0 (ix2 r k) * x1 (ix2 k q)) + x2 (ix2 (0 : Fin 1) q) := by
  unfold k1_pay1
  exact Dense.block_affine_apply dot_S5000x128_S128x64_S5000x64_1_0_0_1_n_n rfl rfl rfl rfl rfl rfl x0 x1 x2 _ _ _ _ r q

/-- The block indices over the grid: the input and output row blocks move with the point, the weights and the bias
    stay at block zero. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point `t` is rows `5000 t …` of the input matrix. -/
theorem rows_apply (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v54 : S100000x128.Idx → EReal) i := by
  obtain ⟨e0, e1, -⟩ := block_index t
  unfold iblk1
  rw [View.read_apply]
  show V c main_v54 _ = V c main_v54 _
  congr 1
  funext a; apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The weight block at every point is the weight matrix. -/
theorem weights_apply (c : Dev nD) (t : Fin cfg1.N) (y : S128x64.Idx) :
    (iblk1 V c 1 t : Vec Ideal S128x64 .f32) y = (V c main_arg4 : S128x64.Idx → EReal) y := by
  obtain ⟨-, -, e0, e1, -⟩ := block_index t
  unfold iblk1
  rw [View.read_apply]
  show V c main_arg4 _ = V c main_arg4 _
  congr 1
  funext a; apply Fin.ext
  match a with
  | ⟨0, _⟩ => show win1_1.index t (0 : Fin 2) * 128 + 1 * (y 0).val = (y 0).val; rw [e0]; omega
  | ⟨1, _⟩ => show win1_1.index t (1 : Fin 2) * 64 + 1 * (y 1).val = (y 1).val; rw [e1]; omega

/-- The bias block at every point is the one-row bias. -/
theorem bias_apply (c : Dev nD) (t : Fin cfg1.N) (y : S1x64.Idx) :
    (iblk1 V c 2 t : Vec Ideal S1x64 .f32) y = (V c main_v55 : S1x64.Idx → EReal) y := by
  obtain ⟨-, -, -, -, e0, e1, -⟩ := block_index t
  unfold iblk1
  rw [View.read_apply]
  show V c main_v55 _ = V c main_v55 _
  congr 1
  funext a; apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- What point `t` writes back is block `t` of `layer2` of the arrays as the grid finds them. -/
theorem flushed_eq (c : Dev nD) (t : Fin cfg1.N) :
    (dat1 V c).flushed 3 t
      = ((cfg1.win 3).blk t).view.read (Elt Ideal) (layer2 (V c main_v54) (V c main_arg4) (V c main_v55)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x64) hz, View.ld_unit_zero (S := S1x64) hz]
  funext j
  obtain ⟨r, q, rfl⟩ : ∃ (r : Fin 5000) (q : Fin 64), j = ix2 r q := ⟨j 0, j 1, eq_ix2 j⟩
  obtain ⟨-, -, -, -, -, -, e0, e1⟩ := block_index t
  show k1_pay1 (iblk1 V c 0 t) (iblk1 V c 1 t) (iblk1 V c 2 t) (ix2 r q)
    = layer2 (V c main_v54) (V c main_arg4) (V c main_v55) (((cfg1.win 3).blk t).view.emb (ix2 r q))
  refine (stored_apply _ _ _ r q).trans ?_
  have hR : t.val * 5000 + r.val < 100000 := by
    have ht : t.val < 20 := lt_of_lt_of_eq t.isLt N_1
    have hr : r.val < 5000 := r.isLt
    omega
  refine Eq.trans ?_ (layer2_apply _ _ _ _ ⟨t.val * 5000 + r.val, hR⟩ q ?_ ?_).symm
  · exact congr (congrArg HAdd.hAdd (Finset.sum_congr rfl fun k _ =>
      congr (congrArg HMul.hMul (rows_apply V c t (ix2 r k) (ix2 ⟨t.val * 5000 + r.val, hR⟩ k) rfl rfl))
        (weights_apply V c t (ix2 k q)))) (bias_apply V c t (ix2 (0 : Fin 1) q))
  · show win1_3.index t (0 : Fin 2) * 5000 + 1 * r.val = t.val * 5000 + r.val
    rw [e0]; omega
  · show win1_3.index t (1 : Fin 2) * 64 + 1 * q.val = q.val
    rw [e1]; omega

/-- An index of the output array is in point `t`'s block iff each coordinate is in the block's range on its axis. -/
theorem mem_block (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v56).slice (win1_3.rect t)).set ↔ _
  rw [View.set_slice_whole, Rect.mem_set_unit]
  exact Iff.rfl

/-- Every index of the output array is in the block of the point its row falls in. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, e0, e1⟩ := block_index ⟨(i 0).val / 5000, ht⟩
  refine ⟨⟨(i 0).val / 5000, ht⟩, flush1_3 _, ?_⟩
  rw [mem_block]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 64 ≤ (i 1).val
      ∧ (i 1).val < win1_3.index ⟨(i 0).val / 5000, ht⟩ (1 : Fin 2) * 64 + 64
    rw [e1]; omega

/-- After the grid the output array is `layer2` of the arrays the grid found. -/
theorem final (c : Dev nD) :
    (dat1 V c).arrAt 3 cfg1.N = layer2 (V c main_v54) (V c main_arg4) (V c main_v55) :=
  (dat1 V c).arrAt_eq_of_cover 3 (layer2 (V c main_v54) (V c main_arg4) (V c main_v55))
    (fun t _ => flushed_eq V c t) covered

end Cert.KernelIdeal.Layer2

end
-- ==== Proof.LayerAgreement.lean ====
/-
  The two programs' dense layers are the same functions of their inputs.

  On whole arrays the row-block program's first layer is `max (A · W + b, 0)` with the bias a reshaped one-row matrix
  (`Layer1.layer1`), and the whole-matrix program's is `dot_general`, two broadcasts of the bias, an addition and a
  maximum against a broadcast zero. At every row `r` and column `q` both are
  `max ((∑ k, A (r, k) · W (k, q)) + b q, 0)` — the same finite sum of the same products — and likewise the second
  layer without the maximum. Stated over the whole-matrix program's staged values, so that the aggregated input `A`
  is whatever that program aggregates.
-/
import proofs.«132825_j55353538510962_1_alg».proof.Proof.FirstLayerBlocks
import proofs.«132825_j55353538510962_1_alg».proof.Proof.SecondLayerBlocks
import proofs.«132825_j55353538510962_1_alg».proof.Proof.Gen.ReferenceIdeal.Read
import Idealize.ShloMosaic.Lib.ValueLayout

noncomputable section

namespace Cert.Agreement

open Idealize.ShloMosaic Idealize.ShloMosaic.ValueIdx
open Cert.ReferenceIdeal.Read

/-- The whole-matrix program's hidden layer at `(r, q)`. -/
theorem ref_hidden_apply (x0 : (⟨2, ![100000, 128]⟩ : Shape).Idx → EReal) (x1 : (⟨2, ![2, 1600000]⟩ : Shape).Idx → BitVec 32)
    (x2 : (⟨2, ![128, 128]⟩ : Shape).Idx → EReal) (x3 : (⟨1, ![128]⟩ : Shape).Idx → EReal) (r : Fin 100000) (q : Fin 128) :
    val_main_v44 (F := Ideal) x0 x1 x2 x3 (ix2 r q)
      = Dense.relu (Dense.affine (M := 100000) (K := 128) (N := 128) (val_main_v39 (F := Ideal) x0 x1) x2 x3 r q) := by
  unfold val_main_v44 val_main_v43 val_main_v40 val_main_v42 val_main_v41 val_main_call0_v0 val_main_call0_cst
  exact (Dense.bcast_relu_apply _ _ _ _).trans (congrArg Dense.relu
    (Dense.whole_affine_apply Cert.ReferenceIdeal.dot_S100000x128_S128x128_S100000x128_1_0_0_1_n_n rfl rfl rfl rfl rfl rfl
      _ x2 x3 _ _ r q))

/-- The whole-matrix program's output layer at `(r, q)`. -/
theorem ref_out_apply (x0 : (⟨2, ![100000, 128]⟩ : Shape).Idx → EReal) (x1 : (⟨2, ![2, 1600000]⟩ : Shape).Idx → BitVec 32)
    (x2 : (⟨2, ![128, 128]⟩ : Shape).Idx → EReal) (x3 : (⟨1, ![128]⟩ : Shape).Idx → EReal)
    (x4 : (⟨2, ![128, 64]⟩ : Shape).Idx → EReal) (x5 : (⟨1, ![64]⟩ : Shape).Idx → EReal) (r : Fin 100000) (q : Fin 64) :
    val_main_v61 (F := Ideal) x0 x1 x2 x3 x4 x5 (ix2 r q)
      = Dense.affine (M := 100000) (K := 128) (N := 64) (val_main_v57 (F := Ideal) x0 x1 x2 x3) x4 x5 r q := by
  unfold val_main_v61 val_main_v58 val_main_v60 val_main_v59
  exact Dense.whole_affine_apply Cert.ReferenceIdeal.dot_S100000x128_S128x64_S100000x64_1_0_0_1_n_n rfl rfl rfl rfl rfl rfl
    _ x4 x5 _ _ r q

/-- The first layers agree: the row-block program's, on the whole-matrix program's aggregated input and the bias
    reshaped to one row, is the whole-matrix program's hidden layer. -/
theorem hidden_eq (x0 : (⟨2, ![100000, 128]⟩ : Shape).Idx → EReal) (x1 : (⟨2, ![2, 1600000]⟩ : Shape).Idx → BitVec 32)
    (x2 : (⟨2, ![128, 128]⟩ : Shape).Idx → EReal) (x3 : (⟨1, ![128]⟩ : Shape).Idx → EReal)
    (h : (⟨1, ![128]⟩ : Shape).ShapeCasts ⟨2, ![1, 128]⟩) :
    Cert.KernelIdeal.Layer1.layer1 (val_main_v39 (F := Ideal) x0 x1) x2 (shapeCast ⟨2, ![1, 128]⟩ x3 h)
      = val_main_v44 (F := Ideal) x0 x1 x2 x3 := by
  funext i
  obtain ⟨r, q, rfl⟩ : ∃ (r : Fin 100000) (q : Fin 128), i = ix2 r q := ⟨i 0, i 1, eq_ix2 i⟩
  rw [ref_hidden_apply]
  exact congrArg Dense.relu (congrArg (_ + ·) (shapeCast_a_1a_apply x3 h (0 : Fin 1) q))

/-- The second layers agree. -/
theorem out_eq (x0 : (⟨2, ![100000, 128]⟩ : Shape).Idx → EReal) (x1 : (⟨2, ![2, 1600000]⟩ : Shape).Idx → BitVec 32)
    (x2 : (⟨2, ![128, 128]⟩ : Shape).Idx → EReal) (x3 : (⟨1, ![128]⟩ : Shape).Idx → EReal)
    (x4 : (⟨2, ![128, 64]⟩ : Shape).Idx → EReal) (x5 : (⟨1, ![64]⟩ : Shape).Idx → EReal)
    (h : (⟨1, ![64]⟩ : Shape).ShapeCasts ⟨2, ![1, 64]⟩) :
    Cert.KernelIdeal.Layer2.layer2 (val_main_v57 (F := Ideal) x0 x1 x2 x3) x4 (shapeCast ⟨2, ![1, 64]⟩ x5 h)
      = val_main_v61 (F := Ideal) x0 x1 x2 x3 x4 x5 := by
  funext i
  obtain ⟨r, q, rfl⟩ : ∃ (r : Fin 100000) (q : Fin 64), i = ix2 r q := ⟨i 0, i 1, eq_ix2 i⟩
  rw [ref_out_apply]
  exact congrArg (_ + ·) (shapeCast_a_1a_apply x5 h (0 : Fin 1) q)

end Cert.Agreement

end
-- ==== Proof.KernelValue.lean ====
/-
  What the row-block program's result buffer holds after the run, as a function of the six arguments.

  The buffer contents at the four boundaries of the run are a fold: host operations, the first grid, host operations,
  the second grid. Read at the buffers that matter:
  * after the first host stretch the aggregated features are the aggregation of the arguments — the same gathers,
    the same symmetric normalisation `rsqrt (deg src · deg dst)`, the same scatter-add as in the whole-matrix program,
    operation for operation —, the first bias is the bias vector reshaped to one row, and the edge endpoints and the
    edge weights are kept for the second aggregation;
  * the first grid leaves the hidden features, `max (A · W₁ + b₁, 0)`, which is the whole-matrix program's hidden layer;
  * the second host stretch aggregates the hidden features with the same endpoints and weights;
  * the second grid leaves `A' · W₂ + b₂`, the whole-matrix program's result.
  Each equation is stated against the whole-matrix program's staged values, so the two programs' host operations are
  never opened: they are the same terms.
-/
import proofs.«132825_j55353538510962_1_alg».proof.Proof.LayerAgreement

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first host stretch -/

set_option maxHeartbeats 4000000 in
/-- The aggregated input features. -/
theorem aggregated_input (c : Dev nD) :
    (V1 m ρ c main_v39 : S100000x128.Idx → EReal)
      = Cert.ReferenceIdeal.Read.val_main_v39 (F := Ideal) (m ((c.tc : Thread nD τ).loc main_arg0))
          (m ((c.tc : Thread nD τ).loc main_arg1)) := by
  dsimp only [V1, W1, hostOps0]
  after_results_simp <;> rfl

set_option maxHeartbeats 4000000 in
/-- The first weight matrix is untouched. -/
theorem weights1 (c : Dev nD) :
    (V1 m ρ c main_arg2 : S128x128.Idx → EReal) = m ((c.tc : Thread nD τ).loc main_arg2) := by
  dsimp only [V1, W1, hostOps0]
  after_results_simp <;> rfl

set_option maxHeartbeats 4000000 in
/-- The first bias, reshaped to one row. -/
theorem bias1 (c : Dev nD) :
    (V1 m ρ c main_v40 : S1x128.Idx → EReal)
      = shapeCast S1x128 (m ((c.tc : Thread nD τ).loc main_arg3)) shapeCasts_S128_S1x128 := by
  dsimp only [V1, W1, hostOps0]
  after_results_simp <;> rfl

set_option maxHeartbeats 4000000 in
/-- The edges' source endpoints, self loops appended. -/
theorem sources (c : Dev nD) :
    (W1 m ρ c (Proc.devRef .tc main_v3) : S1700000.Idx → BitVec 32)
      = Cert.ReferenceIdeal.Read.val_main_v3 (F := Ideal) (m ((c.tc : Thread nD τ).loc main_arg1)) := by
  dsimp only [W1, hostOps0]
  after_results_simp <;> rfl

set_option maxHeartbeats 4000000 in
/-- The edges' destination endpoints, self loops appended. -/
theorem destinations (c : Dev nD) :
    (W1 m ρ c (Proc.devRef .tc main_v6) : S1700000.Idx → BitVec 32)
      = Cert.ReferenceIdeal.Read.val_main_v6 (F := Ideal) (m ((c.tc : Thread nD τ).loc main_arg1)) := by
  dsimp only [W1, hostOps0]
  after_results_simp <;> rfl

set_option maxHeartbeats 4000000 in
/-- The edge weights `rsqrt (deg src · deg dst)`. -/
theorem edge_weights (c : Dev nD) :
    (W1 m ρ c (Proc.devRef .tc main_v26) : S1700000.Idx → EReal)
      = Cert.ReferenceIdeal.Read.val_main_v26 (F := Ideal) (m ((c.tc : Thread nD τ).loc main_arg1)) := by
  dsimp only [W1, hostOps0]
  after_results_simp <;> rfl

/-! ## After the first grid -/

/-- The hidden features `max (A · W₁ + b₁, 0)`: the whole-matrix program's hidden layer. -/
theorem hidden (c : Dev nD) :
    (W2 m ρ c (Proc.devRef .tc main_v41) : S100000x128.Idx → EReal)
      = Cert.ReferenceIdeal.Read.val_main_v44 (F := Ideal) (m ((c.tc : Thread nD τ).loc main_arg0))
          (m ((c.tc : Thread nD τ).loc main_arg1)) (m ((c.tc : Thread nD τ).loc main_arg2))
          (m ((c.tc : Thread nD τ).loc main_arg3)) := by
  refine (W2_arr m ρ c 3).trans ?_
  rw [Layer1.final (V1 m ρ) c, aggregated_input m ρ c, weights1 m ρ c, bias1 m ρ c]
  exact Cert.Agreement.hidden_eq _ _ _ _ _

/-! ## After the second host stretch -/

set_option maxHeartbeats 4000000 in
/-- The aggregated hidden features: the same endpoints and edge weights, applied to the hidden layer. -/
theorem aggregated_hidden (c : Dev nD) :
    (V3 m ρ c main_v54 : S100000x128.Idx → EReal)
      = Cert.ReferenceIdeal.Read.val_main_v57 (F := Ideal) (m ((c.tc : Thread nD τ).loc main_arg0))
          (m ((c.tc : Thread nD τ).loc main_arg1)) (m ((c.tc : Thread nD τ).loc main_arg2))
          (m ((c.tc : Thread nD τ).loc main_arg3)) := by
  dsimp only [V3, W3, hostOps1]
  after_results_simp
  rw [hidden m ρ c, W2_of_ne m ρ c main_v3 (by decide), W2_of_ne m ρ c main_v6 (by decide),
    W2_of_ne m ρ c main_v26 (by decide), sources m ρ c, destinations m ρ c, edge_weights m ρ c]
  rfl

set_option maxHeartbeats 4000000 in
/-- The second weight matrix is untouched. -/
theorem weights2 (c : Dev nD) :
    (V3 m ρ c main_arg4 : S128x64.Idx → EReal) = m ((c.tc : Thread nD τ).loc main_arg4) := by
  dsimp only [V3, W3, hostOps1]
  after_results_simp
  rw [W2_of_ne m ρ c main_arg4 (by decide)]
  dsimp only [W1, hostOps0]
  after_results_simp <;> rfl

set_option maxHeartbeats 4000000 in
/-- The second bias, reshaped to one row. -/
theorem bias2 (c : Dev nD) :
    (V3 m ρ c main_v55 : S1x64.Idx → EReal)
      = shapeCast S1x64 (m ((c.tc : Thread nD τ).loc main_arg5)) shapeCasts_S64_S1x64 := by
  dsimp only [V3, W3, hostOps1]
  after_results_simp
  rw [W2_of_ne m ρ c main_arg5 (by decide)]
  dsimp only [W1, hostOps0]
  after_results_simp <;> rfl

/-! ## After the second grid -/

/-- The result `A' · W₂ + b₂`: the whole-matrix program's result, as a function of the six arguments. -/
theorem result (c : Dev nD) :
    (W4 m ρ c (Proc.devRef .tc main_v56) : S100000x64.Idx → EReal)
      = Cert.ReferenceIdeal.Read.val_main_v61 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) := by
  refine (W4_arr m ρ c 3).trans ?_
  rw [Layer2.final (V3 m ρ) c, aggregated_hidden m ρ c, weights2 m ρ c, bias2 m ρ c]
  exact Cert.Agreement.out_eq _ _ _ _ _ _ _

end Cert.KernelIdeal.ResultValue

end
-- ==== Proof.lean ====
/-
  A two-layer graph convolution, `out = Â · max (Â · x · W₁ + b₁, 0) · W₂ + b₂`, in two programs.

  Both programs build the normalised adjacency action `Â` with the same host operations: self loops appended to the
  edge list, the in-degrees by a scatter-add of ones, the edge weights `rsqrt (deg src · deg dst)`, and for a feature
  matrix `h` the aggregation `scatter-add over dst of h[src] · weight`. They differ only in the two dense layers: one
  program runs each as a grid of twenty blocks of 5000 rows on the matrix unit, operands passed through a narrower
  float format, the bias as a one-row matrix; the other as one `dot_general` on the whole matrix plus a broadcast bias.

  On the extended reals a change of float format is the identity and the matrix unit's product into a zero
  accumulator is the plain sum over the contracted index, so each block of a layer is the restriction to its rows of
  the whole-matrix layer, entry by entry the same finite sum of the same products; the blocks cover all rows. Hence
  the first grid leaves exactly the other program's hidden layer, the second host stretch aggregates it with the same
  operations, and the second grid leaves exactly the other program's result. No law that needs finite entries is
  used: the precondition is never opened.

  The modules: DenseLayer (a layer's entry in both spellings), FirstLayerBlocks / SecondLayerBlocks (what each grid
  leaves in its output array), LayerAgreement (the layers are the other program's staged values), KernelRun (the run,
  with the result's buffer named), KernelValue (the result as a function of the six arguments).
-/
import proofs.«132825_j55353538510962_1_alg».proof.Defs
import proofs.«132825_j55353538510962_1_alg».proof.Proof.Gen.Kernel
import proofs.«132825_j55353538510962_1_alg».proof.Proof.Gen.Kernel.Skeleton
import proofs.«132825_j55353538510962_1_alg».proof.Proof.Gen.Kernel.Launch
import proofs.«132825_j55353538510962_1_alg».proof.Proof.Gen.Kernel.Points
import proofs.«132825_j55353538510962_1_alg».proof.Proof.Gen.Kernel.Frame
import proofs.«132825_j55353538510962_1_alg».proof.Proof.Gen.KernelIdeal
import proofs.«132825_j55353538510962_1_alg».proof.Proof.Gen.KernelIdeal.Skeleton
import proofs.«132825_j55353538510962_1_alg».proof.Proof.Gen.KernelIdeal.Launch
import proofs.«132825_j55353538510962_1_alg».proof.Proof.Gen.KernelIdeal.Points
import proofs.«132825_j55353538510962_1_alg».proof.Proof.Gen.KernelIdeal.Frame
import proofs.«132825_j55353538510962_1_alg».proof.Proof.Gen.ReferenceIdeal
import proofs.«132825_j55353538510962_1_alg».proof.Proof.Gen.ReferenceIdeal.Run
import proofs.«132825_j55353538510962_1_alg».proof.Proof.Gen.ReferenceIdeal.Read
import proofs.«132825_j55353538510962_1_alg».proof.Proof.Gen.Pre_finite_inputs
import proofs.«132825_j55353538510962_1_alg».proof.Proof.KernelRun
import proofs.«132825_j55353538510962_1_alg».proof.Proof.KernelValue
import Idealize.ShloMosaic.Adequacy
import Idealize.ShloMosaic.Init

noncomputable section

namespace Cert.Proof

open Idealize.ShloMosaic Idealize.ShloMosaic.TcCoe Idealize.SL.Sem

/-- The row-block program runs and keeps its arguments, read at the machine's words. -/
theorem frame_kernel : Cert.frame_Kernel := fun m ρ _ => Cert.Kernel.Gen.frame m ρ

/-- The same program read on the extended reals runs and keeps its arguments. -/
theorem frame_kernel_ideal : Cert.frame_KernelIdeal := fun m ρ _ => Cert.KernelIdeal.Gen.frame m ρ

/-- The whole-matrix program runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the row-block program was rewritten for its reading on the extended reals. -/
theorem preserves : Cert.preserves_Kernel_KernelIdeal := trivial

/-- From memories agreeing on the six arguments both programs end with the same result: the whole-matrix program's
    last staged value of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v56),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2.1, (hagree c).2.2.2.1,
    (hagree c).2.2.2.2.1, (hagree c).2.2.2.2.2]
  exact (Cert.KernelIdeal.ResultValue.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
